-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x256 .f32) (main_arg1 : FVec F S256x128 .f32) (main_arg2 : FVec F S128 .f32) (main_arg3 : FVec F S128x40 .f32) (main_arg4 : FVec F S40 .f32) (main_arg5 : IVec S800000 32) (main_arg6 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg3
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg4 main_v13 main_v16
-- ==== Kernel.lean ====
abbrev S50000x256 : Shape := ⟨2, ![50000, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x2 : Shape := ⟨2, ![50000, 2]⟩
abbrev S1x128 : Shape := ⟨2, ![1, 128]⟩
abbrev S1x40 : Shape := ⟨2, ![1, 40]⟩
abbrev S50000x128 : Shape := ⟨2, ![50000, 128]⟩
abbrev S2000x256 : Shape := ⟨2, ![2000, 256]⟩
abbrev S2000x2 : Shape := ⟨2, ![2000, 2]⟩
abbrev S2000x128 : Shape := ⟨2, ![2000, 128]⟩
abbrev S2000x1 : Shape := ⟨2, ![2000, 1]⟩
abbrev S800000x128 : Shape := ⟨2, ![800000, 128]⟩
abbrev S50000x40 : Shape := ⟨2, ![50000, 40]⟩
abbrev S2000x40 : Shape := ⟨2, ![2000, 40]⟩
abbrev S800000x40 : Shape := ⟨2, ![800000, 40]⟩

abbrev nBuf : Space → Nat
  | .hbm => 63
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x1, .f32⟩
  | .hbm, ⟨27, _⟩ => ⟨S50000x2, .f32⟩
  | .hbm, ⟨28, _⟩ => ⟨S1x128, .f32⟩
  | .hbm, ⟨29, _⟩ => ⟨S1x40, .f32⟩
  | .hbm, ⟨30, _⟩ => ⟨S50000x128, .f32⟩
  | .hbm, ⟨31, _⟩ => ⟨S50000x128, .bf16⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .bf16⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x40, .f32⟩
  | .hbm, ⟨47, _⟩ => ⟨S50000x40, .bf16⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x40, .bf16⟩
  | .hbm, ⟨57, _⟩ => ⟨S800000x40, .f32⟩
  | .hbm, ⟨58, _⟩ => ⟨S_, .f32⟩
  | .hbm, ⟨59, _⟩ => ⟨S50000x40, .f32⟩
  | .hbm, ⟨60, _⟩ => ⟨S800000x1, .i32⟩
  | .hbm, ⟨61, _⟩ => ⟨S50000x40, .f32⟩
  | .hbm, ⟨62, _⟩ => ⟨S50000x40, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x2, .f32⟩
  | .local _ .vmem, ⟨4, _⟩ => ⟨S2000x2, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x2, .f32⟩
  | .local _ .vmem, ⟨10, _⟩ => ⟨S2000x2, .f32⟩
  | .local _ .vmem, ⟨11, _⟩ => ⟨S1x128, .f32⟩
  | .local _ .vmem, ⟨12, _⟩ => ⟨S128x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S2000x2, .f32⟩
  | .local _ .vmem, ⟨18, _⟩ => ⟨S2000x2, .f32⟩
  | .local _ .vmem, ⟨19, _⟩ => ⟨S1x40, .f32⟩
  | .local _ .vmem, ⟨20, _⟩ => ⟨S2000x40, .f32⟩
  | .local _ .vmem, ⟨21, _⟩ => ⟨S2000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  concatenates_S50000x1_S50000x1_S50000x2_d1 : Shape.Concatenates [S50000x1, S50000x1] S50000x2 1
  shapeCasts_S128_S1x128 : S128.ShapeCasts S1x128
  shapeCasts_S40_S1x40 : S40.ShapeCasts S1x40
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  slices_S2000x2_o0_0_S2000x1 : S2000x2.Slices ![0, 0] S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  slices_S2000x2_o0_1_S2000x1 : S2000x2.Slices ![0, 1] S2000x1
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  bcast_S_S50000x40 : S_.BroadcastsInDim S50000x40 (![] : Fin 0 → Fin S50000x40.rank)
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  scatter_S50000_S800000x1_S800000_n_0_0_1_wf : ScatterDims.WF S50000 S800000x1 S800000 [] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x40_S2000x40_1_0_0_1_n_n_wf : DotDims.WF S2000x128 S128x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x2.size a ≤ S50000x2.size a
  hwx0_2 : ∀ i : grid0.Coords, EltTy.bits .f32 = 32 ∨ (Rect.block (s := S50000x2) S2000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x2.size a ≤ S50000x2.size a
  hwx1_1 : ∀ i : grid1.Coords, EltTy.bits .f32 = 32 ∨ (Rect.block (s := S50000x2) S2000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x40.size a ≤ S50000x40.size a
  hwx1_4 : ∀ i : grid1.Coords, EltTy.bits .f32 = 32 ∨ (Rect.block (s := S50000x40) S2000x40.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S50000x40.size a
  hwx2_0 : ∀ i : grid2.Coords, EltTy.bits .f32 = 32 ∨ (Rect.block (s := S50000x40) S2000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x2.size a ≤ S50000x2.size a
  hwx2_1 : ∀ i : grid2.Coords, EltTy.bits .f32 = 32 ∨ (Rect.block (s := S50000x2) S2000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x40.size a ≤ S50000x40.size a
  hwx2_3 : ∀ i : grid2.Coords, EltTy.bits .f32 = 32 ∨ (Rect.block (s := S50000x40) S2000x40.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S2000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S2000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S800000x128 : Shape := ⟨2, ![800000, 128]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x256, .f32⟩
  | .hbm, ⟨27, _⟩ => ⟨S50000x256, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x40, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x40, .f32⟩
  | .hbm, ⟨82, _⟩ => ⟨S_, .f32⟩
  | .hbm, ⟨83, _⟩ => ⟨S50000x40, .f32⟩
  | .hbm, ⟨84, _⟩ => ⟨S800000x1, .i32⟩
  | .hbm, ⟨85, _⟩ => ⟨S50000x40, .f32⟩
  | .hbm, ⟨86, _⟩ => ⟨S50000x1, .f32⟩
  | .hbm, ⟨87, _⟩ => ⟨S50000x40, .f32⟩
  | .hbm, ⟨88, _⟩ => ⟨S50000x40, .f32⟩
  | .hbm, ⟨89, _⟩ => ⟨S1x40, .f32⟩
  | .hbm, ⟨90, _⟩ => ⟨S50000x40, .f32⟩
  | .hbm, ⟨91, _⟩ => ⟨S50000x40, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_c_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.KernelRun.lean ====
/-
  The idealized kernel's run with its RESULT named.

  @main is six segments: host operations, the first layer's matmul-and-scale call, host operations (the gather along
  the edges' sources and the scatter-add into their destinations), the fused call, host operations again, and the last
  call. The run below is the segmented launch that also gives the frame, read at one more buffer: the result array
  ends at the contents `W6` of the last boundary, the arguments as launched.
-/
import proofs.«161322_j10024453669129_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, its result array at the last boundary's
    contents and its argument arrays as launched. -/
theorem run : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.ResultRun

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.Payloads.lean ====
/-
  What each of the three kernel bodies stores, read at one element of its block, on the extended reals.

  Every body works on a block of 2000 rows (nodes). `n2` is the packed `[2000, 2]` block of degree factors: column 0 the
  source-side factor, column 1 the destination-side one.
    * the first body stores  `(x · w) (p, q) * n2 (p, 0)`;
    * the fused body stores  `(relu (agg * n2 (·, 1) + b) · w) (p, q) * n2 (p, 0)`;
    * the last body stores   `agg (p, q) * n2 (p, 1) + b (0, q)`.
  A change of float format is the identity on the extended reals, and a matrix product into a zero accumulator is the
  plain sum over the contracted coordinate.
-/
import proofs.«161322_j10024453669129_2_alg».proof.Proof.Gen.KernelIdeal.Skeleton
import proofs.«161322_j10024453669129_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.ValueIdx

/-! ## The two matrix products as sums over the contracted coordinate -/

/-! The two non-contracted axes of each product's operand indices. -/

theorem dot_S2000x256_S256x128_S2000x128_1_0_0_1_n_n_lhs0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem dot_S2000x256_S256x128_S2000x128_1_0_0_1_n_n_rhs1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

theorem dot_S2000x128_S128x40_S2000x40_1_0_0_1_n_n_lhs0 (i : S2000x40.Idx) (q : dot_S2000x128_S128x40_S2000x40_1_0_0_1_n_n.contr.Idx) : (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
theorem dot_S2000x128_S128x40_S2000x40_1_0_0_1_n_n_rhs1 (i : S2000x40.Idx) (q : dot_S2000x128_S128x40_S2000x40_1_0_0_1_n_n.contr.Idx) : (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- The first layer's product of a `[2000, 256]` block with the `[256, 128]` weights, into zero: the sum over `k`. -/
theorem product256_apply (l : FVec Ideal S2000x256 .bf16) (r : FVec Ideal S256x128 .bf16) (p : Fin 2000) (q : Fin 128) :
    matmul dot_S2000x256_S256x128_S2000x128_1_0_0_1_n_n none l r (constant S2000x128 .f32 0x00000000#32) (ix2 p q)
      = ∑ k : Fin 256, l (ix2 p k) * r (ix2 k q) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact dot_S2000x256_S256x128_S2000x128_1_0_0_1_n_n_lhs0 _ _
    | ⟨1, _⟩ => exact (dot_S2000x256_S256x128_S2000x128_1_0_0_1_n_n.lhsIdx_val_of_single rfl _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (dot_S2000x256_S256x128_S2000x128_1_0_0_1_n_n.rhsIdx_val_of_single rfl _ _).trans hk
    | ⟨1, _⟩ => exact dot_S2000x256_S256x128_S2000x128_1_0_0_1_n_n_rhs1 _ _)
  rw [el, er]

/-- The second layer's product of a `[2000, 128]` block with the `[128, 40]` weights, into zero: the sum over `k`. -/
theorem product128_apply (l : FVec Ideal S2000x128 .bf16) (r : FVec Ideal S128x40 .bf16) (p : Fin 2000) (q : Fin 40) :
    matmul dot_S2000x128_S128x40_S2000x40_1_0_0_1_n_n none l r (constant S2000x40 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x40_S2000x40_1_0_0_1_n_n 128 rfl rfl).symm]
  refine Finset.sum_congr rfl fun k _ => ?_
  have hk := ValueIdx.contrEquiv1_symm_val dot_S2000x128_S128x40_S2000x40_1_0_0_1_n_n 128 rfl rfl k
  have el : dot_S2000x128_S128x40_S2000x40_1_0_0_1_n_n.lhsIdx (ix2 p q) ((ValueIdx.contrEquiv1 dot_S2000x128_S128x40_S2000x40_1_0_0_1_n_n 128 rfl rfl).symm k) = ix2 p k := funext fun a => Fin.ext (by
    match a with
    | ⟨0, _⟩ => exact dot_S2000x128_S128x40_S2000x40_1_0_0_1_n_n_lhs0 _ _
    | ⟨1, _⟩ => exact (dot_S2000x128_S128x40_S2000x40_1_0_0_1_n_n.lhsIdx_val_of_single rfl _ _).trans hk)
  have er : dot_S2000x128_S128x40_S2000x40_1_0_0_1_n_n.rhsIdx (ix2 p q) ((ValueIdx.contrEquiv1 dot_S2000x128_S128x40_S2000x40_1_0_0_1_n_n 128 rfl rfl).symm k) = ix2 k q := funext fun a => Fin.ext (by
    match a with
    | ⟨0, _⟩ => exact (dot_S2000x128_S128x40_S2000x40_1_0_0_1_n_n.rhsIdx_val_of_single rfl _ _).trans hk
    | ⟨1, _⟩ => exact dot_S2000x128_S128x40_S2000x40_1_0_0_1_n_n_rhs1 _ _)
  rw [el, er]

/-! ## The three payloads at an element -/

/-- The first body: the product's element scaled by the row's source-side factor. -/
theorem scaledProduct_apply (x : Vec Ideal S2000x256 .f32) (w : Vec Ideal S256x128 .f32) (n2 : Vec Ideal S2000x2 .f32)
    (p : Fin 2000) (q : Fin 128) :
    k0_pay1 (F := Ideal) x w n2 (ix2 p q) = (∑ k : Fin 256, x (ix2 p k) * w (ix2 k q)) * n2 (ix2 p (0 : Fin 2)) := by
  unfold k0_pay1
  rw [mulf_apply, product256_apply, shapeCast_self, broadcastTo_a1_ab_apply,
    extractStridedSlice_column_apply ![0, 0] (0 : Fin 2) rfl rfl]
  rfl

/-- The last body: the aggregated element scaled by the row's destination-side factor, plus the bias. -/
theorem scaledPlusBias_apply (n2 : Vec Ideal S2000x2 .f32) (agg : Vec Ideal S2000x40 .f32) (b : Vec Ideal S1x40 .f32)
    (p : Fin 2000) (q : Fin 40) :
    k2_pay1 (F := Ideal) n2 agg b (ix2 p q) = agg (ix2 p q) * n2 (ix2 p (1 : Fin 2)) + b (ix2 (0 : Fin 1) q) := by
  unfold k2_pay1
  rw [addf_apply, mulf_apply, shapeCast_self, shapeCast_self, shapeCast_self, broadcastTo_a1_ab_apply,
    extractStridedSlice_column_apply ![0, 1] (1 : Fin 2) rfl rfl, broadcastTo_1b_ab_apply]

/-- The fused body: the first layer's output row (scaled, biased, clamped below at zero) times the second layer's
    weights, scaled by the row's source-side factor. -/
theorem fused_apply (n2 : Vec Ideal S2000x2 .f32) (agg : Vec Ideal S2000x128 .f32) (b : Vec Ideal S1x128 .f32)
    (w : Vec Ideal S128x40 .f32) (p : Fin 2000) (q : Fin 40) :
    k1_pay1 (F := Ideal) n2 agg b w (ix2 p q)
      = (∑ k : Fin 128, max (agg (ix2 p k) * n2 (ix2 p (1 : Fin 2)) + b (ix2 (0 : Fin 1) k)) (Ideal.ofBits .f32 0x00000000#32)
            * w (ix2 k q)) * n2 (ix2 p (0 : Fin 2)) := by
  unfold k1_pay1
  simp only [shapeCast_self]
  rw [mulf_apply, product128_apply, broadcastTo_a1_ab_apply,
    extractStridedSlice_column_apply ![0, 0] (0 : Fin 2) rfl rfl]
  refine congrArg (· * n2 (ix2 p (0 : Fin 2))) (Finset.sum_congr rfl fun k _ => ?_)
  rw [truncf_apply, truncf_apply, maximumf_apply, addf_apply, mulf_apply,
    broadcastTo_a1_ab_apply, extractStridedSlice_column_apply ![0, 1] (1 : Fin 2) rfl rfl, broadcastTo_1b_ab_apply]
  rfl

end Cert.KernelIdeal.Blocks

end
-- ==== Proof.Region0.lean ====
/-
  The first call as one function of whole arrays.

  The call tiles the 50000 nodes into 25 blocks of 2000 rows; point `t` of the grid reads rows `2000 t … 2000 t + 1999`
  of the features and of the packed degree factors, the whole weight matrix, and writes the same rows of the output. So
  the output array ends holding, at `(r, j)`, the product's element scaled by row `r`'s source-side factor:
  `layer1 x w n2 (r, j) = (∑ k, x (r, k) * w (k, j)) * n2 (r, 0)`.
  Stated for ANY contents `V` of the buffers when the call is entered.
-/
import proofs.«161322_j10024453669129_2_alg».proof.Proof.Gen.KernelIdeal.Frame
import proofs.«161322_j10024453669129_2_alg».proof.Proof.Payloads

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- Row `p` of block `t` is row `2000 t + p` of the array. -/
def blockRow (t : Fin 25) (p : Fin 2000) : Fin 50000 := ⟨t.val * 2000 + p.val, by have := t.isLt; have := p.isLt; omega⟩

/-- The first layer's messages: row `r` of `x · w` scaled by the row's source-side degree factor. -/
def layer1 (x : S50000x256.Idx → EReal) (w : S256x128.Idx → EReal) (n2 : S50000x2.Idx → EReal) : S50000x128.Idx → EReal :=
  fun i => (∑ k : Fin 256, x (ix2 (i 0 : Fin 50000) k) * w (ix2 k (i 1 : Fin 128))) * n2 (ix2 (i 0 : Fin 50000) (0 : Fin 2))

/-- The printed index maps over the grid: point `t` takes row block `t` of the features, of the factors and of the
    output, and the one block of the weights. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `layer1` of the arrays as the call finds them. -/
theorem flushed0_eq (c : Dev nD) (t : Fin cfg0.N) :
    (dat0 V c).flushed 3 t
      = ((cfg0.win 3).blk t).view.read (Elt Ideal) (layer1 (V c main_arg0) (V c main_arg1) (V c main_v15)) := by
  show (cfg0.win 3).cut (grid0.coords t) ((dat0 V c).after 3 t) = _
  rw [after0_3]
  unfold out0_3
  rw [View.canon_unit_zero zero_offsets]
  simp only [View.ld_unit_zero (S := S2000x256) zero_offsets, View.ld_unit_zero (S := S256x128) zero_offsets,
    View.ld_unit_zero (S := S2000x2) zero_offsets]
  obtain ⟨e00, e01, e10, e11, e20, e21, e30, e31⟩ := index_maps0 t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (ix2 p q)
    = layer1 (V c main_arg0) (V c main_arg1) (V c main_v15) (((cfg0.win 3).blk t).view.emb (ix2 p q))
  rw [scaledProduct_apply]
  have ht : t.val < 25 := t.isLt
  have hx : ∀ k : Fin 256, ((cfg0.win 0).blk t).view.emb (ix2 p k) = ix2 (blockRow ⟨t.val, ht⟩ p) k := fun k =>
    funext fun a => Fin.ext (by
      match a with
      | ⟨0, _⟩ => show win0_0.index t (0 : Fin 2) * 2000 + 1 * p.val = t.val * 2000 + p.val; omega
      | ⟨1, _⟩ => show win0_0.index t (1 : Fin 2) * 256 + 1 * k.val = k.val; omega)
  have hw : ∀ k : Fin 256, ((cfg0.win 1).blk t).view.emb (ix2 k q) = ix2 k q := fun k =>
    funext fun a => Fin.ext (by
      match a with
      | ⟨0, _⟩ => show win0_1.index t (0 : Fin 2) * 256 + 1 * k.val = k.val; omega
      | ⟨1, _⟩ => show win0_1.index t (1 : Fin 2) * 128 + 1 * q.val = q.val; omega)
  have hn : ((cfg0.win 2).blk t).view.emb (ix2 p (0 : Fin 2)) = ix2 (blockRow ⟨t.val, ht⟩ p) (0 : Fin 2) :=
    funext fun a => Fin.ext (by
      match a with
      | ⟨0, _⟩ => show win0_2.index t (0 : Fin 2) * 2000 + 1 * p.val = t.val * 2000 + p.val; omega
      | ⟨1, _⟩ => show win0_2.index t (1 : Fin 2) * 2 + 1 * 0 = 0; omega)
  have ho : ((cfg0.win 3).blk t).view.emb (ix2 p q) = ix2 (blockRow ⟨t.val, ht⟩ p) q :=
    funext fun a => Fin.ext (by
      match a with
      | ⟨0, _⟩ => show win0_3.index t (0 : Fin 2) * 2000 + 1 * p.val = t.val * 2000 + p.val; omega
      | ⟨1, _⟩ => show win0_3.index t (1 : Fin 2) * 128 + 1 * q.val = q.val; omega)
  rw [ho]
  have key : ∀ (X : S50000x256.Idx → EReal) (Wt : S256x128.Idx → EReal) (N : S50000x2.Idx → EReal),
      (∑ k : Fin 256, X (((cfg0.win 0).blk t).view.emb (ix2 p k)) * Wt (((cfg0.win 1).blk t).view.emb (ix2 k q)))
        * N (((cfg0.win 2).blk t).view.emb (ix2 p (0 : Fin 2)))
      = layer1 X Wt N (ix2 (blockRow ⟨t.val, ht⟩ p) q) := fun X Wt N => by
    rw [hn]
    exact congrArg (· * N (ix2 (blockRow ⟨t.val, ht⟩ p) (0 : Fin 2)))
      (Finset.sum_congr rfl fun k _ => by rw [hx k, hw k])
  exact key (V c main_arg0) (V c main_arg1) (V c main_v15)

/-- An index of the output array is in point `t`'s block iff each coordinate is in the block's range on its axis. -/
theorem mem_block0 (t : Fin cfg0.N) (i : S50000x128.Idx) :
    i ∈ ((cfg0.win 3).blk t).view.set
      ↔ ∀ a : Fin 2, win0_3.index t a * S2000x128.size a ≤ (i a).val ∧ (i a).val < win0_3.index t a * S2000x128.size a + S2000x128.size a := by
  show i ∈ ((View.whole main_v18).slice (win0_3.rect t)).set ↔ _
  rw [View.set_slice_whole, Rect.mem_set_unit]
  exact Iff.rfl

/-- The 25 row blocks tile the output: row `r` is in the block of point `r / 2000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 2000, by show (i 0).val / 2000 < 25; omega⟩, flush0_3 _, ?_⟩
  rw [mem_block0]
  obtain ⟨-, -, -, -, -, -, e30, e31⟩ := index_maps0 ⟨(i 0).val / 2000, by show (i 0).val / 2000 < 25; omega⟩
  have e30' : win0_3.index ⟨(i 0).val / 2000, by show (i 0).val / 2000 < 25; omega⟩ (0 : Fin 2) = (i 0).val / 2000 := e30
  intro a
  match a with
  | ⟨0, _⟩ =>
    show win0_3.index _ (0 : Fin 2) * 2000 ≤ (i 0).val ∧ (i 0).val < win0_3.index _ (0 : Fin 2) * 2000 + 2000
    rw [e30']; omega
  | ⟨1, _⟩ =>
    show win0_3.index _ (1 : Fin 2) * 128 ≤ (i 1).val ∧ (i 1).val < win0_3.index _ (1 : Fin 2) * 128 + 128
    rw [e31]; omega

/-- The output array after the call: `layer1` of the arrays as the call finds them. -/
theorem final0 (c : Dev nD) :
    (dat0 V c).arrAt 3 cfg0.N = layer1 (V c main_arg0) (V c main_arg1) (V c main_v15) :=
  (dat0 V c).arrAt_eq_of_cover 3 _ (fun t _ => flushed0_eq V c t) cover0

end Cert.KernelIdeal.Blocks

end
-- ==== Proof.Region1.lean ====
/-
  The fused call as one function of whole arrays.

  Point `t` reads rows `2000 t … 2000 t + 1999` of the aggregated messages and of the packed degree factors, the whole
  bias row and the whole second weight matrix, and writes the same rows of the output. Row `r` of the first layer's
  output is `relu (agg (r, ·) * n2 (r, 1) + b)`; the call stores that row times the weights, scaled by `n2 (r, 0)`:
  `layer2 agg n2 b w (r, j) = (∑ k, max (agg (r, k) * n2 (r, 1) + b (0, k)) 0 * w (k, j)) * n2 (r, 0)`.
  Stated for ANY contents `V` of the buffers when the call is entered.
-/
import proofs.«161322_j10024453669129_2_alg».proof.Proof.Gen.KernelIdeal.Frame
import proofs.«161322_j10024453669129_2_alg».proof.Proof.Payloads
import proofs.«161322_j10024453669129_2_alg».proof.Proof.Region0

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The second layer's messages from the first layer's aggregate. -/
def layer2 (agg : S50000x128.Idx → EReal) (n2 : S50000x2.Idx → EReal) (b : S1x128.Idx → EReal) (w : S128x40.Idx → EReal) :
    S50000x40.Idx → EReal :=
  fun i => (∑ k : Fin 128, max (agg (ix2 (i 0 : Fin 50000) k) * n2 (ix2 (i 0 : Fin 50000) (1 : Fin 2)) + b (ix2 (0 : Fin 1) k))
      (Ideal.ofBits .f32 0x00000000#32) * w (ix2 k (i 1 : Fin 40))) * n2 (ix2 (i 0 : Fin 50000) (0 : Fin 2))

/-- The printed index maps over the grid: point `t` takes row block `t` of the aggregate, of the factors and of the
    output, and the one block of the bias and of the weights. -/
theorem index_maps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `layer2` of the arrays as the call finds them. -/
theorem flushed1_eq (c : Dev nD) (t : Fin cfg1.N) :
    (dat1 V c).flushed 4 t
      = ((cfg1.win 4).blk t).view.read (Elt Ideal) (layer2 (V c main_v30) (V c main_v15) (V c main_v16) (V c main_arg3)) := by
  show (cfg1.win 4).cut (grid1.coords t) ((dat1 V c).after 4 t) = _
  rw [after1_4]
  unfold out1_4
  rw [View.canon_unit_zero zero_offsets]
  simp only [View.ld_unit_zero (S := S2000x128) zero_offsets, View.ld_unit_zero (S := S2000x2) zero_offsets,
    View.ld_unit_zero (S := S1x128) zero_offsets, View.ld_unit_zero (S := S128x40) zero_offsets]
  obtain ⟨e00, e01, e10, e11, e20, e21, e30, e31, e40, e41⟩ := index_maps1 t
  funext j
  obtain ⟨p, q, rfl⟩ : ∃ (p : Fin 2000) (q : Fin 40), j = ix2 p q := ⟨j 0, j 1, eq_ix2 j⟩
  show k1_pay1 (F := Ideal) (iblk1 V c 1 t) (iblk1 V c 0 t) (iblk1 V c 2 t) (iblk1 V c 3 t) (ix2 p q)
    = layer2 (V c main_v30) (V c main_v15) (V c main_v16) (V c main_arg3) (((cfg1.win 4).blk t).view.emb (ix2 p q))
  rw [fused_apply]
  have ht : t.val < 25 := t.isLt
  have ha : ∀ k : Fin 128, ((cfg1.win 0).blk t).view.emb (ix2 p k) = ix2 (blockRow ⟨t.val, ht⟩ p) k := fun k =>
    funext fun a => Fin.ext (by
      match a with
      | ⟨0, _⟩ => show win1_0.index t (0 : Fin 2) * 2000 + 1 * p.val = t.val * 2000 + p.val; omega
      | ⟨1, _⟩ => show win1_0.index t (1 : Fin 2) * 128 + 1 * k.val = k.val; omega)
  have hn1 : ((cfg1.win 1).blk t).view.emb (ix2 p (1 : Fin 2)) = ix2 (blockRow ⟨t.val, ht⟩ p) (1 : Fin 2) :=
    funext fun a => Fin.ext (by
      match a with
      | ⟨0, _⟩ => show win1_1.index t (0 : Fin 2) * 2000 + 1 * p.val = t.val * 2000 + p.val; omega
      | ⟨1, _⟩ => show win1_1.index t (1 : Fin 2) * 2 + 1 * 1 = 1; omega)
  have hn0 : ((cfg1.win 1).blk t).view.emb (ix2 p (0 : Fin 2)) = ix2 (blockRow ⟨t.val, ht⟩ p) (0 : Fin 2) :=
    funext fun a => Fin.ext (by
      match a with
      | ⟨0, _⟩ => show win1_1.index t (0 : Fin 2) * 2000 + 1 * p.val = t.val * 2000 + p.val; omega
      | ⟨1, _⟩ => show win1_1.index t (1 : Fin 2) * 2 + 1 * 0 = 0; omega)
  have hb : ∀ k : Fin 128, ((cfg1.win 2).blk t).view.emb (ix2 (0 : Fin 1) k) = ix2 (0 : Fin 1) k := fun k =>
    funext fun a => Fin.ext (by
      match a with
      | ⟨0, _⟩ => show win1_2.index t (0 : Fin 2) * 1 + 1 * 0 = 0; omega
      | ⟨1, _⟩ => show win1_2.index t (1 : Fin 2) * 128 + 1 * k.val = k.val; omega)
  have hw : ∀ k : Fin 128, ((cfg1.win 3).blk t).view.emb (ix2 k q) = ix2 k q := fun k =>
    funext fun a => Fin.ext (by
      match a with
      | ⟨0, _⟩ => show win1_3.index t (0 : Fin 2) * 128 + 1 * k.val = k.val; omega
      | ⟨1, _⟩ => show win1_3.index t (1 : Fin 2) * 40 + 1 * q.val = q.val; omega)
  have ho : ((cfg1.win 4).blk t).view.emb (ix2 p q) = ix2 (blockRow ⟨t.val, ht⟩ p) q :=
    funext fun a => Fin.ext (by
      match a with
      | ⟨0, _⟩ => show win1_4.index t (0 : Fin 2) * 2000 + 1 * p.val = t.val * 2000 + p.val; omega
      | ⟨1, _⟩ => show win1_4.index t (1 : Fin 2) * 40 + 1 * q.val = q.val; omega)
  rw [ho]
  have key : ∀ (A : S50000x128.Idx → EReal) (N : S50000x2.Idx → EReal) (B : S1x128.Idx → EReal) (Wt : S128x40.Idx → EReal),
      (∑ k : Fin 128, max (A (((cfg1.win 0).blk t).view.emb (ix2 p k)) * N (((cfg1.win 1).blk t).view.emb (ix2 p (1 : Fin 2)))
            + B (((cfg1.win 2).blk t).view.emb (ix2 (0 : Fin 1) k))) (Ideal.ofBits .f32 0x00000000#32)
          * Wt (((cfg1.win 3).blk t).view.emb (ix2 k q)))
        * N (((cfg1.win 1).blk t).view.emb (ix2 p (0 : Fin 2)))
      = layer2 A N B Wt (ix2 (blockRow ⟨t.val, ht⟩ p) q) := fun A N B Wt => by
    rw [hn0, hn1]
    exact congrArg (· * N (ix2 (blockRow ⟨t.val, ht⟩ p) (0 : Fin 2)))
      (Finset.sum_congr rfl fun k _ => by rw [ha k, hb k, hw k])
  exact key (V c main_v30) (V c main_v15) (V c main_v16) (V c main_arg3)

/-- An index of the output array is in point `t`'s block iff each coordinate is in the block's range on its axis. -/
theorem mem_block1 (t : Fin cfg1.N) (i : S50000x40.Idx) :
    i ∈ ((cfg1.win 4).blk t).view.set
      ↔ ∀ a : Fin 2, win1_4.index t a * S2000x40.size a ≤ (i a).val ∧ (i a).val < win1_4.index t a * S2000x40.size a + S2000x40.size a := by
  show i ∈ ((View.whole main_v31).slice (win1_4.rect t)).set ↔ _
  rw [View.set_slice_whole, Rect.mem_set_unit]
  exact Iff.rfl

/-- The 25 row blocks tile the output: row `r` is in the block of point `r / 2000`. -/
theorem cover1 (i : S50000x40.Idx) : ∃ t : Fin cfg1.N, (cfg1.win 4).flush t = true ∧ i ∈ ((cfg1.win 4).blk t).view.set := by
  have hi0 : (i 0).val < 50000 := (i 0).isLt
  have hi1 : (i 1).val < 40 := (i 1).isLt
  refine ⟨⟨(i 0).val / 2000, by show (i 0).val / 2000 < 25; omega⟩, flush1_4 _, ?_⟩
  rw [mem_block1]
  obtain ⟨-, -, -, -, -, -, -, -, e40, e41⟩ := index_maps1 ⟨(i 0).val / 2000, by show (i 0).val / 2000 < 25; omega⟩
  have e40' : win1_4.index ⟨(i 0).val / 2000, by show (i 0).val / 2000 < 25; omega⟩ (0 : Fin 2) = (i 0).val / 2000 := e40
  intro a
  match a with
  | ⟨0, _⟩ =>
    show win1_4.index _ (0 : Fin 2) * 2000 ≤ (i 0).val ∧ (i 0).val < win1_4.index _ (0 : Fin 2) * 2000 + 2000
    rw [e40']; omega
  | ⟨1, _⟩ =>
    show win1_4.index _ (1 : Fin 2) * 40 ≤ (i 1).val ∧ (i 1).val < win1_4.index _ (1 : Fin 2) * 40 + 40
    rw [e41]; omega

/-- The output array after the call: `layer2` of the arrays as the call finds them. -/
theorem final1 (c : Dev nD) :
    (dat1 V c).arrAt 4 cfg1.N = layer2 (V c main_v30) (V c main_v15) (V c main_v16) (V c main_arg3) :=
  (dat1 V c).arrAt_eq_of_cover 4 _ (fun t _ => flushed1_eq V c t) cover1

end Cert.KernelIdeal.Blocks

end
-- ==== Proof.Region2.lean ====
/-
  The last call as one function of whole arrays.

  Point `t` reads rows `2000 t … 2000 t + 1999` of the second aggregate and of the packed degree factors and the whole
  bias row, and writes the same rows of the result:
  `layer3 agg n2 b (r, j) = agg (r, j) * n2 (r, 1) + b (0, j)`.
  Stated for ANY contents `V` of the buffers when the call is entered.
-/
import proofs.«161322_j10024453669129_2_alg».proof.Proof.Gen.KernelIdeal.Frame
import proofs.«161322_j10024453669129_2_alg».proof.Proof.Payloads
import proofs.«161322_j10024453669129_2_alg».proof.Proof.Region0

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The result from the second layer's aggregate. -/
def layer3 (agg : S50000x40.Idx → EReal) (n2 : S50000x2.Idx → EReal) (b : S1x40.Idx → EReal) : S50000x40.Idx → EReal :=
  fun i => agg (ix2 (i 0 : Fin 50000) (i 1 : Fin 40)) * n2 (ix2 (i 0 : Fin 50000) (1 : Fin 2)) + b (ix2 (0 : Fin 1) (i 1 : Fin 40))

/-- The printed index maps over the grid: point `t` takes row block `t` of the aggregate, of the factors and of the
    result, and the one block of the bias. -/
theorem index_maps2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `layer3` of the arrays as the call finds them. -/
theorem flushed2_eq (c : Dev nD) (t : Fin cfg2.N) :
    (dat2 V c).flushed 3 t
      = ((cfg2.win 3).blk t).view.read (Elt Ideal) (layer3 (V c main_v43) (V c main_v15) (V c main_v17)) := by
  show (cfg2.win 3).cut (grid2.coords t) ((dat2 V c).after 3 t) = _
  rw [after2_3]
  unfold out2_3
  rw [View.canon_unit_zero zero_offsets]
  simp only [View.ld_unit_zero (S := S2000x40) zero_offsets, View.ld_unit_zero (S := S2000x2) zero_offsets,
    View.ld_unit_zero (S := S1x40) zero_offsets]
  obtain ⟨e00, e01, e10, e11, e20, e21, e30, e31⟩ := index_maps2 t
  funext j
  obtain ⟨p, q, rfl⟩ : ∃ (p : Fin 2000) (q : Fin 40), j = ix2 p q := ⟨j 0, j 1, eq_ix2 j⟩
  show k2_pay1 (F := Ideal) (iblk2 V c 1 t) (iblk2 V c 0 t) (iblk2 V c 2 t) (ix2 p q)
    = layer3 (V c main_v43) (V c main_v15) (V c main_v17) (((cfg2.win 3).blk t).view.emb (ix2 p q))
  rw [scaledPlusBias_apply]
  have ht : t.val < 25 := t.isLt
  have ha : ((cfg2.win 0).blk t).view.emb (ix2 p q) = ix2 (blockRow ⟨t.val, ht⟩ p) q :=
    funext fun a => Fin.ext (by
      match a with
      | ⟨0, _⟩ => show win2_0.index t (0 : Fin 2) * 2000 + 1 * p.val = t.val * 2000 + p.val; omega
      | ⟨1, _⟩ => show win2_0.index t (1 : Fin 2) * 40 + 1 * q.val = q.val; omega)
  have hn1 : ((cfg2.win 1).blk t).view.emb (ix2 p (1 : Fin 2)) = ix2 (blockRow ⟨t.val, ht⟩ p) (1 : Fin 2) :=
    funext fun a => Fin.ext (by
      match a with
      | ⟨0, _⟩ => show win2_1.index t (0 : Fin 2) * 2000 + 1 * p.val = t.val * 2000 + p.val; omega
      | ⟨1, _⟩ => show win2_1.index t (1 : Fin 2) * 2 + 1 * 1 = 1; omega)
  have hb : ((cfg2.win 2).blk t).view.emb (ix2 (0 : Fin 1) q) = ix2 (0 : Fin 1) q :=
    funext fun a => Fin.ext (by
      match a with
      | ⟨0, _⟩ => show win2_2.index t (0 : Fin 2) * 1 + 1 * 0 = 0; omega
      | ⟨1, _⟩ => show win2_2.index t (1 : Fin 2) * 40 + 1 * q.val = q.val; omega)
  have ho : ((cfg2.win 3).blk t).view.emb (ix2 p q) = ix2 (blockRow ⟨t.val, ht⟩ p) q :=
    funext fun a => Fin.ext (by
      match a with
      | ⟨0, _⟩ => show win2_3.index t (0 : Fin 2) * 2000 + 1 * p.val = t.val * 2000 + p.val; omega
      | ⟨1, _⟩ => show win2_3.index t (1 : Fin 2) * 40 + 1 * q.val = q.val; omega)
  rw [ho]
  have key : ∀ (A : S50000x40.Idx → EReal) (N : S50000x2.Idx → EReal) (B : S1x40.Idx → EReal),
      A (((cfg2.win 0).blk t).view.emb (ix2 p q)) * N (((cfg2.win 1).blk t).view.emb (ix2 p (1 : Fin 2)))
        + B (((cfg2.win 2).blk t).view.emb (ix2 (0 : Fin 1) q))
      = layer3 A N B (ix2 (blockRow ⟨t.val, ht⟩ p) q) := fun A N B => by
    rw [ha, hn1, hb]
    rfl
  exact key (V c main_v43) (V c main_v15) (V c main_v17)

/-- An index of the result array is in point `t`'s block iff each coordinate is in the block's range on its axis. -/
theorem mem_block2 (t : Fin cfg2.N) (i : S50000x40.Idx) :
    i ∈ ((cfg2.win 3).blk t).view.set
      ↔ ∀ a : Fin 2, win2_3.index t a * S2000x40.size a ≤ (i a).val ∧ (i a).val < win2_3.index t a * S2000x40.size a + S2000x40.size a := by
  show i ∈ ((View.whole main_v44).slice (win2_3.rect t)).set ↔ _
  rw [View.set_slice_whole, Rect.mem_set_unit]
  exact Iff.rfl

/-- The 25 row blocks tile the result: row `r` is in the block of point `r / 2000`. -/
theorem cover2 (i : S50000x40.Idx) : ∃ t : Fin cfg2.N, (cfg2.win 3).flush t = true ∧ i ∈ ((cfg2.win 3).blk t).view.set := by
  have hi0 : (i 0).val < 50000 := (i 0).isLt
  have hi1 : (i 1).val < 40 := (i 1).isLt
  refine ⟨⟨(i 0).val / 2000, by show (i 0).val / 2000 < 25; omega⟩, flush2_3 _, ?_⟩
  rw [mem_block2]
  obtain ⟨-, -, -, -, -, -, e30, e31⟩ := index_maps2 ⟨(i 0).val / 2000, by show (i 0).val / 2000 < 25; omega⟩
  have e30' : win2_3.index ⟨(i 0).val / 2000, by show (i 0).val / 2000 < 25; omega⟩ (0 : Fin 2) = (i 0).val / 2000 := e30
  intro a
  match a with
  | ⟨0, _⟩ =>
    show win2_3.index _ (0 : Fin 2) * 2000 ≤ (i 0).val ∧ (i 0).val < win2_3.index _ (0 : Fin 2) * 2000 + 2000
    rw [e30']; omega
  | ⟨1, _⟩ =>
    show win2_3.index _ (1 : Fin 2) * 40 ≤ (i 1).val ∧ (i 1).val < win2_3.index _ (1 : Fin 2) * 40 + 40
    rw [e31]; omega

/-- The result array after the call: `layer3` of the arrays as the call finds them. -/
theorem final2 (c : Dev nD) :
    (dat2 V c).arrAt 3 cfg2.N = layer3 (V c main_v43) (V c main_v15) (V c main_v17) :=
  (dat2 V c).arrAt_eq_of_cover 3 _ (fun t _ => flushed2_eq V c t) cover2

end Cert.KernelIdeal.Blocks

end
-- ==== Proof.KernelValue.lean ====
/-
  The idealized kernel's result as ONE function of its arguments.

  Between the three calls @main computes on whole arrays: the two degree vectors (a scatter-add of ones at the edges'
  sources, and at their destinations), their factors `1 / √(max deg 1)` packed as the two columns of `norms`, and after
  each of the first two calls the message passing `aggregate`: gather the rows of `h` at the edges' sources (a negative
  index wrapped once), scatter-add them at the edges' destinations. (The messages travel in a narrower float format;
  on the extended reals that changes nothing.) Following the buffers' contents from the launch through the six
  segments gives the result array as `result` of the arguments.
-/
import proofs.«161322_j10024453669129_2_alg».proof.Proof.KernelRun
import proofs.«161322_j10024453669129_2_alg».proof.Proof.Region0
import proofs.«161322_j10024453669129_2_alg».proof.Proof.Region1
import proofs.«161322_j10024453669129_2_alg».proof.Proof.Region2
import Idealize.ShloMosaic.Lib.StableHlo.Run

set_option maxRecDepth 16384

noncomputable section

namespace Cert.KernelIdeal.ResultValue

open Cert.KernelIdeal Cert.KernelIdeal.Gen Cert.KernelIdeal.Blocks
open Idealize.ShloMosaic Idealize.ShloMosaic.TcCoe Idealize.ShloMosaic.ValueIdx Idealize.ShloMosaic.StableHlo
open Idealize.SL Idealize.SL.Sem
open Idealize.ShloMosaic.Pipeline (Dat Cfg Window)

/-! ## The host stages, as the program spells them -/

/-- How many edges name each node: ones scatter-added at the edge list's entries. -/
def degreeOf (e : (⟨S800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 e)
    (broadcastInDim S800000 ![] bcast_S_S800000 (constant (F := Ideal) S_ .f32 0x3F800000#32))

/-- The degree factor `1 / √(max deg 1)` of each node. -/
def normOf (e : (⟨S800000, .i32⟩ : BufTy).Contents (Elt Ideal)) : (⟨S50000, .f32⟩ : BufTy).Contents (Elt Ideal) :=
  Host.rsqrt (maximumf (degreeOf e) (broadcastInDim S50000 ![] bcast_S_S50000 (constant (F := Ideal) S_ .f32 0x3F800000#32)))

/-- The two factors packed: column 0 from the sources, column 1 from the destinations. -/
def norms (src dst : (⟨S800000, .i32⟩ : BufTy).Contents (Elt Ideal)) : (⟨S50000x2, .f32⟩ : BufTy).Contents (Elt Ideal) :=
  concatenate S50000x2 1 [⟨S50000x1, broadcastInDim S50000x1 ![0] bcast_S50000_S50000x1_0 (normOf src)⟩,
    ⟨S50000x1, broadcastInDim S50000x1 ![0] bcast_S50000_S50000x1_0 (normOf dst)⟩] concatenates_S50000x1_S50000x1_S50000x2_d1

/-- The sources as a column of start indices, a negative one moved up by the number of nodes. -/
def wrapped (src : (⟨S800000, .i32⟩ : BufTy).Contents (Elt Ideal)) : (⟨S800000x1, .i32⟩ : BufTy).Contents (Elt Ideal) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Message passing on 128 features: gather at the sources, scatter-add at the destinations. -/
def aggregate128 (h : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (extf .f32 (Host.gather gather_S50000x128_S800000x1_S800000x128_1_0_n_n_0_1_1128 (truncf .bf16 h bitsLt_bf16_f32) (wrapped src)) bitsLt_bf16_f32)

/-- Message passing on 40 features. -/
def aggregate40 (h : (⟨S50000x40, .f32⟩ : BufTy).Contents (Elt Ideal)) (src dst : (⟨S800000, .i32⟩ : BufTy).Contents (Elt Ideal)) :
    (⟨S50000x40, .f32⟩ : BufTy).Contents (Elt Ideal) :=
  Host.scatterAdd scatter_S50000x40_S800000x1_S800000x40_1_0_0_1
    (broadcastInDim S50000x40 ![] bcast_S_S50000x40 (constant (F := Ideal) S_ .f32 0x00000000#32))
    (broadcastInDim S800000x1 ![0] bcast_S800000_S800000x1_0 dst)
    (extf .f32 (Host.gather gather_S50000x40_S800000x1_S800000x40_1_0_n_n_0_1_140 (truncf .bf16 h bitsLt_bf16_f32) (wrapped src)) bitsLt_bf16_f32)

/-- A bias vector as a one-row matrix. -/
def biasRow128 (b : (⟨S128, .f32⟩ : BufTy).Contents (Elt Ideal)) : (⟨S1x128, .f32⟩ : BufTy).Contents (Elt Ideal) :=
  shapeCast S1x128 b shapeCasts_S128_S1x128
def biasRow40 (b : (⟨S40, .f32⟩ : BufTy).Contents (Elt Ideal)) : (⟨S1x40, .f32⟩ : BufTy).Contents (Elt Ideal) :=
  shapeCast S1x40 b shapeCasts_S40_S1x40

/-- THE KERNEL'S RESULT: two graph-convolution layers, each scaling AFTER its matrix product. -/
def result (x : (⟨S50000x256, .f32⟩ : BufTy).Contents (Elt Ideal)) (w1 : (⟨S256x128, .f32⟩ : BufTy).Contents (Elt Ideal))
    (b1 : (⟨S128, .f32⟩ : BufTy).Contents (Elt Ideal)) (w2 : (⟨S128x40, .f32⟩ : BufTy).Contents (Elt Ideal))
    (b2 : (⟨S40, .f32⟩ : BufTy).Contents (Elt Ideal)) (src dst : (⟨S800000, .i32⟩ : BufTy).Contents (Elt Ideal)) :
    (⟨S50000x40, .f32⟩ : BufTy).Contents (Elt Ideal) :=
  layer3 (aggregate40 (layer2 (aggregate128 (layer1 x w1 (norms src dst)) src dst) (norms src dst) (biasRow128 b1) w2) src dst)
    (norms src dst) (biasRow40 b2)

/-! ## The buffers' contents, boundary by boundary -/

variable (m : (ℓ : Loc nD τ sig) → Buf (Elt Ideal) ℓ) (ρ : Dev nD → PrngReg) (c : Dev nD)

/-! ### When the first call is entered -/

theorem atCall0_norms : W1 m ρ c (Proc.devRef .tc main_v15)
    = norms (m ((c : Thread nD τ).loc main_arg5)) (m ((c : Thread nD τ).loc main_arg6)) := by
  show StableHlo.after hostOps0 (W0 m ρ c) (Proc.devRef .tc main_v15) = _
  after_results <;> rfl
theorem atCall0_bias128 : W1 m ρ c (Proc.devRef .tc main_v16) = biasRow128 (m ((c : Thread nD τ).loc main_arg2)) := by
  show StableHlo.after hostOps0 (W0 m ρ c) (Proc.devRef .tc main_v16) = _
  after_results <;> rfl
theorem atCall0_bias40 : W1 m ρ c (Proc.devRef .tc main_v17) = biasRow40 (m ((c : Thread nD τ).loc main_arg4)) := by
  show StableHlo.after hostOps0 (W0 m ρ c) (Proc.devRef .tc main_v17) = _
  after_results <;> rfl
theorem atCall0_arg0 : W1 m ρ c (Proc.devRef .tc main_arg0) = m ((c : Thread nD τ).loc main_arg0) := by
  show StableHlo.after hostOps0 (W0 m ρ c) (Proc.devRef .tc main_arg0) = _
  after_results <;> rfl
theorem atCall0_arg1 : W1 m ρ c (Proc.devRef .tc main_arg1) = m ((c : Thread nD τ).loc main_arg1) := by
  show StableHlo.after hostOps0 (W0 m ρ c) (Proc.devRef .tc main_arg1) = _
  after_results <;> rfl
theorem atCall0_arg3 : W1 m ρ c (Proc.devRef .tc main_arg3) = m ((c : Thread nD τ).loc main_arg3) := by
  show StableHlo.after hostOps0 (W0 m ρ c) (Proc.devRef .tc main_arg3) = _
  after_results <;> rfl
theorem atCall0_arg5 : W1 m ρ c (Proc.devRef .tc main_arg5) = m ((c : Thread nD τ).loc main_arg5) := by
  show StableHlo.after hostOps0 (W0 m ρ c) (Proc.devRef .tc main_arg5) = _
  after_results <;> rfl
theorem atCall0_arg6 : W1 m ρ c (Proc.devRef .tc main_arg6) = m ((c : Thread nD τ).loc main_arg6) := by
  show StableHlo.after hostOps0 (W0 m ρ c) (Proc.devRef .tc main_arg6) = _
  after_results <;> rfl

/-! ### When the first call returns: its output array written, everything else as entered -/

theorem afterCall0_messages : W2 m ρ c (Proc.devRef .tc main_v18) = layer1 (m ((c : Thread nD τ).loc main_arg0)) (m ((c : Thread nD τ).loc main_arg1)) (norms (m ((c : Thread nD τ).loc main_arg5)) (m ((c : Thread nD τ).loc main_arg6))) := by
  refine (W2_arr m ρ c 3).trans ((final0 (V1 m ρ) c).trans ?_)
  show layer1 (W1 m ρ c (Proc.devRef .tc main_arg0)) (W1 m ρ c (Proc.devRef .tc main_arg1)) (W1 m ρ c (Proc.devRef .tc main_v15)) = _
  rw [atCall0_arg0, atCall0_arg1, atCall0_norms]
theorem afterCall0_norms : W2 m ρ c (Proc.devRef .tc main_v15) = norms (m ((c : Thread nD τ).loc main_arg5)) (m ((c : Thread nD τ).loc main_arg6)) :=
  (W2_arr m ρ c 2).trans (((dat0 (V1 m ρ) c).arrAt_in 2 rfl _).trans ((A_eq0 (V1 m ρ) c 2).trans (atCall0_norms m ρ c)))
theorem afterCall0_bias128 : W2 m ρ c (Proc.devRef .tc main_v16) = biasRow128 (m ((c : Thread nD τ).loc main_arg2)) :=
  (W2_of_ne m ρ c main_v16 (by decide)).trans (atCall0_bias128 m ρ c)
theorem afterCall0_bias40 : W2 m ρ c (Proc.devRef .tc main_v17) = biasRow40 (m ((c : Thread nD τ).loc main_arg4)) :=
  (W2_of_ne m ρ c main_v17 (by decide)).trans (atCall0_bias40 m ρ c)
theorem afterCall0_arg3 : W2 m ρ c (Proc.devRef .tc main_arg3) = m ((c : Thread nD τ).loc main_arg3) :=
  (W2_of_ne m ρ c main_arg3 (by decide)).trans (atCall0_arg3 m ρ c)
theorem afterCall0_arg5 : W2 m ρ c (Proc.devRef .tc main_arg5) = m ((c : Thread nD τ).loc main_arg5) :=
  (W2_of_ne m ρ c main_arg5 (by decide)).trans (atCall0_arg5 m ρ c)
theorem afterCall0_arg6 : W2 m ρ c (Proc.devRef .tc main_arg6) = m ((c : Thread nD τ).loc main_arg6) :=
  (W2_of_ne m ρ c main_arg6 (by decide)).trans (atCall0_arg6 m ρ c)

/-! ### When the second call is entered: the first message passing done -/

theorem atCall1_aggregate : W3 m ρ c (Proc.devRef .tc main_v30) = aggregate128 (layer1 (m ((c : Thread nD τ).loc main_arg0)) (m ((c : Thread nD τ).loc main_arg1)) (norms (m ((c : Thread nD τ).loc main_arg5)) (m ((c : Thread nD τ).loc main_arg6)))) (m ((c : Thread nD τ).loc main_arg5)) (m ((c : Thread nD τ).loc main_arg6)) := by
  have e : W3 m ρ c (Proc.devRef .tc main_v30)
      = aggregate128 (W2 m ρ c (Proc.devRef .tc main_v18)) (W2 m ρ c (Proc.devRef .tc main_arg5)) (W2 m ρ c (Proc.devRef .tc main_arg6)) := by
    show StableHlo.after hostOps1 (W2 m ρ c) (Proc.devRef .tc main_v30) = _
    after_results <;> rfl
  exact e.trans (congr (congr (congrArg aggregate128 (afterCall0_messages m ρ c)) (afterCall0_arg5 m ρ c)) (afterCall0_arg6 m ρ c))
theorem atCall1_norms_kept : W3 m ρ c (Proc.devRef .tc main_v15) = W2 m ρ c (Proc.devRef .tc main_v15) := by
  show StableHlo.after hostOps1 (W2 m ρ c) (Proc.devRef .tc main_v15) = _
  after_results <;> rfl
theorem atCall1_bias128_kept : W3 m ρ c (Proc.devRef .tc main_v16) = W2 m ρ c (Proc.devRef .tc main_v16) := by
  show StableHlo.after hostOps1 (W2 m ρ c) (Proc.devRef .tc main_v16) = _
  after_results <;> rfl
theorem atCall1_bias40_kept : W3 m ρ c (Proc.devRef .tc main_v17) = W2 m ρ c (Proc.devRef .tc main_v17) := by
  show StableHlo.after hostOps1 (W2 m ρ c) (Proc.devRef .tc main_v17) = _
  after_results <;> rfl
theorem atCall1_arg3_kept : W3 m ρ c (Proc.devRef .tc main_arg3) = W2 m ρ c (Proc.devRef .tc main_arg3) := by
  show StableHlo.after hostOps1 (W2 m ρ c) (Proc.devRef .tc main_arg3) = _
  after_results <;> rfl
theorem atCall1_arg5_kept : W3 m ρ c (Proc.devRef .tc main_arg5) = W2 m ρ c (Proc.devRef .tc main_arg5) := by
  show StableHlo.after hostOps1 (W2 m ρ c) (Proc.devRef .tc main_arg5) = _
  after_results <;> rfl
theorem atCall1_arg6_kept : W3 m ρ c (Proc.devRef .tc main_arg6) = W2 m ρ c (Proc.devRef .tc main_arg6) := by
  show StableHlo.after hostOps1 (W2 m ρ c) (Proc.devRef .tc main_arg6) = _
  after_results <;> rfl

/-! ### When the second call returns -/

theorem afterCall1_messages : W4 m ρ c (Proc.devRef .tc main_v31) = layer2 (aggregate128 (layer1 (m ((c : Thread nD τ).loc main_arg0)) (m ((c : Thread nD τ).loc main_arg1)) (norms (m ((c : Thread nD τ).loc main_arg5)) (m ((c : Thread nD τ).loc main_arg6)))) (m ((c : Thread nD τ).loc main_arg5)) (m ((c : Thread nD τ).loc main_arg6))) (norms (m ((c : Thread nD τ).loc main_arg5)) (m ((c : Thread nD τ).loc main_arg6))) (biasRow128 (m ((c : Thread nD τ).loc main_arg2))) (m ((c : Thread nD τ).loc main_arg3)) := by
  refine (W4_arr m ρ c 4).trans ((final1 (V3 m ρ) c).trans ?_)
  show layer2 (W3 m ρ c (Proc.devRef .tc main_v30)) (W3 m ρ c (Proc.devRef .tc main_v15)) (W3 m ρ c (Proc.devRef .tc main_v16))
    (W3 m ρ c (Proc.devRef .tc main_arg3)) = _
  rw [atCall1_aggregate, atCall1_norms_kept, afterCall0_norms, atCall1_bias128_kept, afterCall0_bias128, atCall1_arg3_kept, afterCall0_arg3]
theorem afterCall1_norms : W4 m ρ c (Proc.devRef .tc main_v15) = norms (m ((c : Thread nD τ).loc main_arg5)) (m ((c : Thread nD τ).loc main_arg6)) :=
  (W4_arr m ρ c 1).trans (((dat1 (V3 m ρ) c).arrAt_in 1 rfl _).trans ((A_eq1 (V3 m ρ) c 1).trans
    ((atCall1_norms_kept m ρ c).trans (afterCall0_norms m ρ c))))
theorem afterCall1_bias40 : W4 m ρ c (Proc.devRef .tc main_v17) = biasRow40 (m ((c : Thread nD τ).loc main_arg4)) :=
  (W4_of_ne m ρ c main_v17 (by decide)).trans ((atCall1_bias40_kept m ρ c).trans (afterCall0_bias40 m ρ c))
theorem afterCall1_arg5 : W4 m ρ c (Proc.devRef .tc main_arg5) = m ((c : Thread nD τ).loc main_arg5) :=
  (W4_of_ne m ρ c main_arg5 (by decide)).trans ((atCall1_arg5_kept m ρ c).trans (afterCall0_arg5 m ρ c))
theorem afterCall1_arg6 : W4 m ρ c (Proc.devRef .tc main_arg6) = m ((c : Thread nD τ).loc main_arg6) :=
  (W4_of_ne m ρ c main_arg6 (by decide)).trans ((atCall1_arg6_kept m ρ c).trans (afterCall0_arg6 m ρ c))

/-! ### When the third call is entered: the second message passing done -/

set_option maxHeartbeats 2000000 in
theorem atCall2_aggregate : W5 m ρ c (Proc.devRef .tc main_v43) = aggregate40 (layer2 (aggregate128 (layer1 (m ((c : Thread nD τ).loc main_arg0)) (m ((c : Thread nD τ).loc main_arg1)) (norms (m ((c : Thread nD τ).loc main_arg5)) (m ((c : Thread nD τ).loc main_arg6)))) (m ((c : Thread nD τ).loc main_arg5)) (m ((c : Thread nD τ).loc main_arg6))) (norms (m ((c : Thread nD τ).loc main_arg5)) (m ((c : Thread nD τ).loc main_arg6))) (biasRow128 (m ((c : Thread nD τ).loc main_arg2))) (m ((c : Thread nD τ).loc main_arg3))) (m ((c : Thread nD τ).loc main_arg5)) (m ((c : Thread nD τ).loc main_arg6)) := by
  have e : W5 m ρ c (Proc.devRef .tc main_v43)
      = aggregate40 (W4 m ρ c (Proc.devRef .tc main_v31)) (W4 m ρ c (Proc.devRef .tc main_arg5)) (W4 m ρ c (Proc.devRef .tc main_arg6)) := by
    show StableHlo.after hostOps2 (W4 m ρ c) (Proc.devRef .tc main_v43) = _
    after_results <;> rfl
  exact e.trans (congr (congr (congrArg aggregate40 (afterCall1_messages m ρ c)) (afterCall1_arg5 m ρ c)) (afterCall1_arg6 m ρ c))
theorem atCall2_norms_kept : W5 m ρ c (Proc.devRef .tc main_v15) = W4 m ρ c (Proc.devRef .tc main_v15) := by
  show StableHlo.after hostOps2 (W4 m ρ c) (Proc.devRef .tc main_v15) = _
  after_results <;> rfl
theorem atCall2_bias40_kept : W5 m ρ c (Proc.devRef .tc main_v17) = W4 m ρ c (Proc.devRef .tc main_v17) := by
  show StableHlo.after hostOps2 (W4 m ρ c) (Proc.devRef .tc main_v17) = _
  after_results <;> rfl

/-! ### When the third call returns: the result -/

/-- The result array at the last boundary is `result` of the arguments as launched. -/
theorem result_eq : W6 m ρ c (Proc.devRef .tc main_v44)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 3).trans ((final2 (V5 m ρ) c).trans ?_)
  show layer3 (W5 m ρ c (Proc.devRef .tc main_v43)) (W5 m ρ c (Proc.devRef .tc main_v15)) (W5 m ρ c (Proc.devRef .tc main_v17)) = _
  rw [atCall2_aggregate, atCall2_norms_kept, afterCall1_norms, atCall2_bias40_kept, afterCall1_bias40]
  rfl

/-! ## The run, read -/

/-- Every weakly fair execution of the idealized kernel terminates without a fault, its result array at `result` of the
    argument arrays and the argument arrays as launched. -/
theorem run : θ_run defs (onTc (τ := τ) (main (F := Ideal))) ⟨m, fun _ => 0, ρ⟩ (fun r => ∀ c : Dev nD,
      r.2.mem ((c.tc : Thread nD τ).loc main_v44)
        = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (Cert.KernelIdeal.ResultRun.run m ρ)

end Cert.KernelIdeal.ResultValue

end
-- ==== Proof.ScaleLaw.lean ====
/-
  The one algebraic law that joins the two programs, on the extended reals.

  A graph-convolution layer scales row `r` of a matrix product by a degree factor `n r`. One program scales the
  product, `(∑ k, a k * b k) * n`; the other scales the left operand first, `∑ k, (a k * n) * b k`. On the extended
  reals multiplication does not distribute over addition in general (`⊤ + ⊥`), but it does when the factor is a
  nonnegative real number — and the degree factor is `1 / √(max d 1)`, which is a real number in `[0, 1]` whatever the
  degree `d` is (at `d = ⊤` it is `0`). So no finiteness of the summands is needed.
-/
import Idealize.ShloMosaic.PureOps.Ideal
import Idealize.ShloMosaic.PureOps.Ideal.Laws
import Mathlib.Data.EReal.Operations

noncomputable section

namespace Cert.GraphConv

open Idealize.ShloMosaic

/-- The pattern of `1.0` denotes the real number `1`. -/
theorem ofBits_one : Ideal.ofBits .f32 0x3F800000#32 = 1 := by
  simp [Ideal.ofBits, Ideal.ieee, -EReal.coe_mul]; norm_num

/-- `max d 1` is `⊤` or a real number that is at least `1`. -/
theorem max_one_cases (d : EReal) : max d 1 = ⊤ ∨ ∃ s : ℝ, 1 ≤ s ∧ max d 1 = (s : EReal) := by
  induction d using EReal.rec with
  | bot => exact Or.inr ⟨1, le_refl _, by rw [max_eq_right bot_le]; rfl⟩
  | top => exact Or.inl (max_eq_left le_top)
  | coe r =>
    rcases le_total r 1 with h | h
    · exact Or.inr ⟨1, le_refl _, by
        rw [max_eq_right (show (r : EReal) ≤ 1 from by exact_mod_cast h)]; rfl⟩
    · exact Or.inr ⟨r, h, max_eq_left (show (1 : EReal) ≤ (r : EReal) from by exact_mod_cast h)⟩

/-- At a real number `s ≥ 1` the reciprocal square root is the real number `(√s)⁻¹`. -/
theorem rsqrt_of_one_le (s : ℝ) (h : 1 ≤ s) : Ideal.rsqrt (s : EReal) = (((Real.sqrt s)⁻¹ : ℝ) : EReal) := by
  rw [Ideal.rsqrt_coe, if_neg (by linarith), if_neg (by linarith)]

/-- The degree factor `1 / √(max d 1)` is nonnegative, for every extended real `d`. -/
theorem rsqrt_max_one_nonneg (d : EReal) : 0 ≤ Ideal.rsqrt (max d 1) := by
  rcases max_one_cases d with h | ⟨s, hs, h⟩
  · rw [h, Ideal.rsqrt_top]
  · rw [h, rsqrt_of_one_le s hs]
    exact EReal.coe_nonneg.mpr (inv_nonneg.mpr (Real.sqrt_nonneg _))

/-- The degree factor `1 / √(max d 1)` is never `⊤`. -/
theorem rsqrt_max_one_ne_top (d : EReal) : Ideal.rsqrt (max d 1) ≠ ⊤ := by
  rcases max_one_cases d with h | ⟨s, hs, h⟩
  · rw [h, Ideal.rsqrt_top]; exact EReal.zero_ne_top
  · rw [h, rsqrt_of_one_le s hs]; exact EReal.coe_ne_top _

/-- A nonnegative real factor moves inside a finite sum. -/
theorem sum_mul_of_nonneg {ι : Type} (s : Finset ι) (f : ι → EReal) {n : EReal} (h0 : 0 ≤ n) (ht : n ≠ ⊤) :
    (∑ k ∈ s, f k) * n = ∑ k ∈ s, f k * n := by
  classical
  induction s using Finset.induction_on with
  | empty => simp
  | insert a s ha ih =>
    rw [Finset.sum_insert ha, Finset.sum_insert ha, EReal.right_distrib_of_nonneg_of_ne_top h0 ht, ih]

/-- THE LAW: scaling a row of a product by a nonnegative real factor is scaling the row of the left operand. -/
theorem scale_dot {K : ℕ} (a b : Fin K → EReal) {n : EReal} (h0 : 0 ≤ n) (ht : n ≠ ⊤) :
    (∑ k, a k * b k) * n = ∑ k, (a k * n) * b k := by
  rw [sum_mul_of_nonneg _ _ h0 ht]
  refine Finset.sum_congr rfl fun k _ => ?_
  rw [mul_assoc, mul_comm (b k) n, ← mul_assoc]

end Cert.GraphConv

end
-- ==== Proof.Bridge.lean ====
/-
  The kernel's function of the arguments IS the reference's.

  Both programs compute two graph-convolution layers
      out = D_in^(-1/2) · A · (D_out^(-1/2) · h) · W + b
  with the same degree factors (the same operations on the same edge lists), the same gather along the edges' sources
  and the same scatter-add into their destinations. They differ in one place per layer: the kernel scales the ROWS of
  the product `h · W` by the source-side factor, the reference scales the rows of `h` before the product. A degree
  factor `1 / √(max deg 1)` is a nonnegative real number whatever `deg` is, and a nonnegative real factor moves through
  a finite sum of extended reals (Proof/ScaleLaw.lean), so the two agree element by element — with no finiteness
  assumption on the features or the weights. The messages' narrower float format between the kernel's calls is the
  identity on the extended reals.
-/
import proofs.«161322_j10024453669129_2_alg».proof.Proof.Gen.ReferenceIdeal.Read
import proofs.«161322_j10024453669129_2_alg».proof.Proof.KernelValue
import proofs.«161322_j10024453669129_2_alg».proof.Proof.ScaleLaw
import Idealize.ShloMosaic.Lib.ValueIdx
import Idealize.ShloMosaic.Lib.Pipeline.Value

set_option maxRecDepth 16384

noncomputable section

namespace Cert.GraphConv

open Cert.ReferenceIdeal Cert.ReferenceIdeal.Read Idealize.ShloMosaic Idealize.ShloMosaic.ValueIdx
open Cert.KernelIdeal.ResultValue (degreeOf normOf norms wrapped aggregate128 aggregate40 biasRow128 biasRow40 result)
open Cert.KernelIdeal.Blocks (layer1 layer2 layer3)

/-! ## The degree factors -/

/-- The kernel's degree factor is the reference's, at each of its four occurrences: the same operations. -/
theorem normOf_eq_v9 (e : (⟨S800000, .i32⟩ : BufTy).Contents (Elt Ideal)) : normOf e = val_main_v9 (F := Ideal) e := rfl
theorem normOf_eq_v12 (e : (⟨S800000, .i32⟩ : BufTy).Contents (Elt Ideal)) : normOf e = val_main_v12 (F := Ideal) e := rfl
theorem normOf_eq_v43 (e : (⟨S800000, .i32⟩ : BufTy).Contents (Elt Ideal)) : normOf e = val_main_v43 (F := Ideal) e := rfl
theorem normOf_eq_v46 (e : (⟨S800000, .i32⟩ : BufTy).Contents (Elt Ideal)) : normOf e = val_main_v46 (F := Ideal) e := rfl

/-- At a node the factor is `1 / √(max deg 1)`. -/
theorem normOf_apply (e : (⟨S800000, .i32⟩ : BufTy).Contents (Elt Ideal)) (r : S50000.Idx) : normOf e r = Ideal.rsqrt (max (degreeOf e r) 1) := by
  rw [normOf_eq_v9, val_main_v9_apply, val_main_v8_apply, val_main_v7_apply, val_main_cst_2_apply,
    Ideal.hostUnary_rsqrt_def, Ideal.maximumf_def, Ideal.ofBits_def, ofBits_one]
  rfl

theorem normOf_nonneg (e : (⟨S800000, .i32⟩ : BufTy).Contents (Elt Ideal)) (r : S50000.Idx) : 0 ≤ normOf e r := by
  rw [normOf_apply]; exact rsqrt_max_one_nonneg _
theorem normOf_ne_top (e : (⟨S800000, .i32⟩ : BufTy).Contents (Elt Ideal)) (r : S50000.Idx) : normOf e r ≠ ⊤ := by
  rw [normOf_apply]; exact rsqrt_max_one_ne_top _

/-- A factor vector as a one-column matrix, read at a row. -/
theorem column_apply (v : S50000.Idx → EReal) (r : Fin 50000) :
    broadcastInDim Cert.KernelIdeal.S50000x1 ![0] Cert.KernelIdeal.Gen.bcast_S50000_S50000x1_0 v (ix2 r (0 : Fin 1)) = v (ix1 r) :=
  broadcastInDim_apply _ Cert.KernelIdeal.Gen.bcast_S50000_S50000x1_0 v (ix2 r (0 : Fin 1)) (ix1 r) (fun a => match a with
    | ⟨0, _⟩ => by show r.val = if (50000 : Nat) = 1 then 0 else r.val; rw [if_neg (by decide)])

/-- Column 0 of the packed factors is the source-side factor. -/
theorem norms_col0 (src dst : (⟨S800000, .i32⟩ : BufTy).Contents (Elt Ideal)) (r : Fin 50000) : norms src dst (ix2 r (0 : Fin 2)) = normOf src (ix1 r) := by
  have hi : ∀ b : Fin Cert.KernelIdeal.S50000x1.rank, ((ix2 r (0 : Fin 1) : Cert.KernelIdeal.S50000x1.Idx) b).val
      = ((ix2 r (0 : Fin 2) : Cert.KernelIdeal.S50000x2.Idx) (b.cast rfl)).val := fun b => by
    match b with
    | ⟨0, _⟩ => rfl
    | ⟨1, _⟩ => rfl
  have h := concatenate_pair_apply_left (t := Cert.KernelIdeal.S50000x2) (s₁ := Cert.KernelIdeal.S50000x1) (s₂ := Cert.KernelIdeal.S50000x1) (1 : Fin 2)
    (broadcastInDim Cert.KernelIdeal.S50000x1 ![0] Cert.KernelIdeal.Gen.bcast_S50000_S50000x1_0 (normOf src)) (broadcastInDim Cert.KernelIdeal.S50000x1 ![0] Cert.KernelIdeal.Gen.bcast_S50000_S50000x1_0 (normOf dst))
    Cert.KernelIdeal.Gen.concatenates_S50000x1_S50000x1_S50000x2_d1 (ix2 r (0 : Fin 2)) rfl (ix2 r (0 : Fin 1)) hi
  unfold norms
  exact h.trans (column_apply (normOf src) r)

/-- Column 1 of the packed factors is the destination-side factor. -/
theorem norms_col1 (src dst : (⟨S800000, .i32⟩ : BufTy).Contents (Elt Ideal)) (r : Fin 50000) : norms src dst (ix2 r (1 : Fin 2)) = normOf dst (ix1 r) := by
  have hi : ∀ b : Fin Cert.KernelIdeal.S50000x1.rank, b.cast (rfl : Cert.KernelIdeal.S50000x1.rank = Cert.KernelIdeal.S50000x2.rank) ≠ (1 : Fin 2) →
      ((ix2 r (0 : Fin 1) : Cert.KernelIdeal.S50000x1.Idx) b).val = ((ix2 r (1 : Fin 2) : Cert.KernelIdeal.S50000x2.Idx) (b.cast rfl)).val := fun b hb => by
    match b with
    | ⟨0, _⟩ => rfl
    | ⟨1, _⟩ => exact absurd rfl hb
  have h := concatenate_pair_apply_right (t := Cert.KernelIdeal.S50000x2) (s₁ := Cert.KernelIdeal.S50000x1) (s₂ := Cert.KernelIdeal.S50000x1) (1 : Fin 2)
    (broadcastInDim Cert.KernelIdeal.S50000x1 ![0] Cert.KernelIdeal.Gen.bcast_S50000_S50000x1_0 (normOf src)) (broadcastInDim Cert.KernelIdeal.S50000x1 ![0] Cert.KernelIdeal.Gen.bcast_S50000_S50000x1_0 (normOf dst))
    Cert.KernelIdeal.Gen.concatenates_S50000x1_S50000x1_S50000x2_d1 (ix2 r (1 : Fin 2)) rfl rfl (ix2 r (0 : Fin 1)) hi rfl
  unfold norms
  exact h.trans (column_apply (normOf dst) r)

/-! ## The bias rows -/

theorem biasRow128_apply (b : S128.Idx → EReal) (k : Fin 128) : biasRow128 b (ix2 (0 : Fin 1) k) = b (ix1 k) := by
  unfold biasRow128
  refine shapeCast_apply b _ (ix2 (0 : Fin 1) k) (ix1 k) ?_
  rw [Shape.rowMajor_val_one, Shape.rowMajor_val_two]
  show k.val = 0 * 128 + k.val
  omega
theorem biasRow40_apply (b : S40.Idx → EReal) (k : Fin 40) : biasRow40 b (ix2 (0 : Fin 1) k) = b (ix1 k) := by
  unfold biasRow40
  refine shapeCast_apply b _ (ix2 (0 : Fin 1) k) (ix1 k) ?_
  rw [Shape.rowMajor_val_one, Shape.rowMajor_val_two]
  show k.val = 0 * 40 + k.val
  omega

/-! ## Message passing: the same gather and scatter-add -/

theorem aggregate128_eq (x0 : S50000x256.Idx → EReal) (x1 : S256x128.Idx → EReal) (x5 x6 : (⟨S800000, .i32⟩ : BufTy).Contents (Elt Ideal)) :
    aggregate128 (val_main_v16 (F := Ideal) x0 x1 x5) x5 x6 = val_main_v26 (F := Ideal) x0 x1 x5 x6 := rfl
theorem aggregate40_eq (x0 : S50000x256.Idx → EReal) (x1 : S256x128.Idx → EReal) (x2 : S128.Idx → EReal) (x3 : S128x40.Idx → EReal)
    (x5 x6 : (⟨S800000, .i32⟩ : BufTy).Contents (Elt Ideal)) :
    aggregate40 (val_main_v50 (F := Ideal) x0 x1 x2 x3 x5 x6) x5 x6 = val_main_v60 (F := Ideal) x0 x1 x2 x3 x5 x6 := rfl

/-! ## The layers -/

/-- Layer 1: scaling the product's rows is scaling the features' rows. -/
theorem layer1_eq (x0 : S50000x256.Idx → EReal) (x1 : S256x128.Idx → EReal) (x5 x6 : (⟨S800000, .i32⟩ : BufTy).Contents (Elt Ideal)) :
    layer1 x0 x1 (norms x5 x6) = val_main_v16 (F := Ideal) x0 x1 x5 := by
  funext i
  obtain ⟨r, j, rfl⟩ : ∃ (r : Fin 50000) (j : Fin 128), i = ix2 r j := ⟨i 0, i 1, eq_ix2 i⟩
  rw [val_main_v16_apply]
  show (∑ k : Fin 256, x0 (ix2 r k) * x1 (ix2 k j)) * norms x5 x6 (ix2 r (0 : Fin 2)) = _
  rw [norms_col0, scale_dot _ _ (normOf_nonneg x5 _) (normOf_ne_top x5 _)]
  refine Finset.sum_congr rfl fun k _ => ?_
  have el : lidx_main_v16 (ix2 r j) k = ix2 r k := funext fun a => Fin.ext (by
    match a with
    | ⟨0, _⟩ => rfl
    | ⟨1, _⟩ => rfl)
  have er : ridx_main_v16 (ix2 r j) k = ix2 k j := funext fun a => Fin.ext (by
    match a with
    | ⟨0, _⟩ => rfl
    | ⟨1, _⟩ => rfl)
  have ei : idx_main_v13 (idx_main_v14 (ix2 r k)) = ix1 r := funext fun a => Fin.ext (by
    match a with
    | ⟨0, _⟩ => rfl)
  rw [el, er, val_main_v15_apply, val_main_v14_apply, val_main_v13_apply, Ideal.mulf_def, ei, ← normOf_eq_v9]

/-- Layer 2: the same law, on the first layer's output `relu (agg · n_dst + b1)`. -/
theorem layer2_eq (x0 : S50000x256.Idx → EReal) (x1 : S256x128.Idx → EReal) (x2 : S128.Idx → EReal) (x3 : S128x40.Idx → EReal)
    (x5 x6 : (⟨S800000, .i32⟩ : BufTy).Contents (Elt Ideal)) :
    layer2 (val_main_v26 (F := Ideal) x0 x1 x5 x6) (norms x5 x6) (biasRow128 x2) x3
      = val_main_v50 (F := Ideal) x0 x1 x2 x3 x5 x6 := by
  funext i
  obtain ⟨r, j, rfl⟩ : ∃ (r : Fin 50000) (j : Fin 40), i = ix2 r j := ⟨i 0, i 1, eq_ix2 i⟩
  rw [val_main_v50_apply]
  show (∑ k : Fin 128, max (val_main_v26 (F := Ideal) x0 x1 x5 x6 (ix2 r k) * norms x5 x6 (ix2 r (1 : Fin 2))
        + biasRow128 x2 (ix2 (0 : Fin 1) k)) (Ideal.ofBits .f32 0x00000000#32) * x3 (ix2 k j)) * norms x5 x6 (ix2 r (0 : Fin 2)) = _
  rw [norms_col0, norms_col1, scale_dot _ _ (normOf_nonneg x5 _) (normOf_ne_top x5 _)]
  refine Finset.sum_congr rfl fun k _ => ?_
  have el : lidx_main_v50 (ix2 r j) k = ix2 r k := funext fun a => Fin.ext (by
    match a with
    | ⟨0, _⟩ => rfl
    | ⟨1, _⟩ => rfl)
  have er : ridx_main_v50 (ix2 r j) k = ix2 k j := funext fun a => Fin.ext (by
    match a with
    | ⟨0, _⟩ => rfl
    | ⟨1, _⟩ => rfl)
  have es : idx_main_v47 (idx_main_v48 (ix2 r k)) = ix1 r := funext fun a => Fin.ext (by
    match a with
    | ⟨0, _⟩ => rfl)
  have ed : idx_main_v27 (idx_main_v28 (ix2 r k)) = ix1 r := funext fun a => Fin.ext (by
    match a with
    | ⟨0, _⟩ => rfl)
  have eb : idx_main_v30 (idx_main_v31 (ix2 r k)) = ix1 k := funext fun a => Fin.ext (by
    match a with
    | ⟨0, _⟩ => rfl)
  rw [el, er, val_main_v49_apply, val_main_v33_apply, val_main_v32_apply, val_main_v29_apply, val_main_v28_apply, val_main_v27_apply,
    val_main_v31_apply, val_main_v30_apply, val_main_call0_v0_apply, val_main_call0_cst_apply, val_main_v48_apply, val_main_v47_apply,
    es, ed, eb, biasRow128_apply, ← normOf_eq_v43, ← normOf_eq_v12]
  rfl

/-- The result layer: the same operations, element by element. -/
theorem layer3_eq (x0 : S50000x256.Idx → EReal) (x1 : S256x128.Idx → EReal) (x2 : S128.Idx → EReal) (x3 : S128x40.Idx → EReal)
    (x4 : S40.Idx → EReal) (x5 x6 : (⟨S800000, .i32⟩ : BufTy).Contents (Elt Ideal)) :
    layer3 (val_main_v60 (F := Ideal) x0 x1 x2 x3 x5 x6) (norms x5 x6) (biasRow40 x4)
      = val_main_v66 (F := Ideal) x0 x1 x2 x3 x4 x5 x6 := by
  funext i
  obtain ⟨r, j, rfl⟩ : ∃ (r : Fin 50000) (j : Fin 40), i = ix2 r j := ⟨i 0, i 1, eq_ix2 i⟩
  show val_main_v60 (F := Ideal) x0 x1 x2 x3 x5 x6 (ix2 r j) * norms x5 x6 (ix2 r (1 : Fin 2)) + biasRow40 x4 (ix2 (0 : Fin 1) j) = _
  have ed : idx_main_v61 (idx_main_v62 (ix2 r j)) = ix1 r := funext fun a => Fin.ext (by
    match a with
    | ⟨0, _⟩ => rfl)
  have eb : idx_main_v64 (idx_main_v65 (ix2 r j)) = ix1 j := funext fun a => Fin.ext (by
    match a with
    | ⟨0, _⟩ => rfl)
  rw [norms_col1, biasRow40_apply, val_main_v66_apply, val_main_v63_apply, val_main_v62_apply, val_main_v61_apply,
    val_main_v65_apply, val_main_v64_apply, ed, eb, ← normOf_eq_v46]
  rfl

/-! ## The two programs compute one function -/

/-- THE BRIDGE: the kernel's result, as a function of the seven arguments, is the reference's result term. -/
theorem result_eq_reference (x0 : S50000x256.Idx → EReal) (x1 : S256x128.Idx → EReal) (x2 : S128.Idx → EReal)
    (x3 : S128x40.Idx → EReal) (x4 : S40.Idx → EReal) (x5 x6 : (⟨S800000, .i32⟩ : BufTy).Contents (Elt Ideal)) :
    result x0 x1 x2 x3 x4 x5 x6 = val_main_v66 (F := Ideal) x0 x1 x2 x3 x4 x5 x6 := by
  unfold result
  rw [layer1_eq, aggregate128_eq, layer2_eq, aggregate40_eq, layer3_eq]

end Cert.GraphConv

end
-- ==== Proof.lean ====
/-
  Two stacked graph-convolution layers over 50000 nodes and 800000 edges: the tiled kernel program against the plain
  reference, equal as extended reals.

  Each layer is  out = n_dst ⊙ segment_sum_dst ((n_src ⊙ h)[src] · W) + b  with the degree factors
  n = 1 / √(max deg 1). The kernel program computes the dense parts in three tiled calls (25 row blocks of 2000 nodes:
  the first product with its row scaling; the first layer's bias, clamp and the second product with its row scaling,
  fused; the last scaling and bias) and the gather / scatter-add between them on whole arrays, and it scales each
  product's rows AFTER the product where the reference scales the rows of `h` BEFORE it.

  The proof: each call's output array is one function of the arrays the call finds (Proof/Region0–2.lean, from what
  each grid point writes back and the blocks' tiling); following the buffers through @main's six segments gives the
  kernel's result as one function `result` of the seven arguments (Proof/KernelValue.lean, over the segmented run of
  Proof/KernelRun.lean); the reference's run ends at its operations' composed term; and the two are the same
  function (Proof/Bridge.lean) because a nonnegative real factor moves through a finite sum of extended reals
  (Proof/ScaleLaw.lean) — the degree factor is such a number whatever the edge lists hold, so the inputs' finiteness
  is never used. The idealization pass rewrote nothing, so `preserves` has no conjunct. The frames are the generated
  ones; the reference's is its generated run with the result dropped.
-/
import proofs.«161322_j10024453669129_2_alg».proof.Defs
import proofs.«161322_j10024453669129_2_alg».proof.Proof.Gen.Kernel
import proofs.«161322_j10024453669129_2_alg».proof.Proof.Gen.Kernel.Skeleton
import proofs.«161322_j10024453669129_2_alg».proof.Proof.Gen.Kernel.Launch
import proofs.«161322_j10024453669129_2_alg».proof.Proof.Gen.Kernel.Points
import proofs.«161322_j10024453669129_2_alg».proof.Proof.Gen.Kernel.Frame
import proofs.«161322_j10024453669129_2_alg».proof.Proof.Gen.KernelIdeal
import proofs.«161322_j10024453669129_2_alg».proof.Proof.Gen.KernelIdeal.Skeleton
import proofs.«161322_j10024453669129_2_alg».proof.Proof.Gen.KernelIdeal.Launch
import proofs.«161322_j10024453669129_2_alg».proof.Proof.Gen.KernelIdeal.Points
import proofs.«161322_j10024453669129_2_alg».proof.Proof.Gen.KernelIdeal.Frame
import proofs.«161322_j10024453669129_2_alg».proof.Proof.Gen.ReferenceIdeal
import proofs.«161322_j10024453669129_2_alg».proof.Proof.Gen.ReferenceIdeal.Run
import proofs.«161322_j10024453669129_2_alg».proof.Proof.Gen.ReferenceIdeal.Read
import proofs.«161322_j10024453669129_2_alg».proof.Proof.Gen.Pre_finite_inputs
import proofs.«161322_j10024453669129_2_alg».proof.Proof.KernelValue
import proofs.«161322_j10024453669129_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs, its arguments unchanged. -/
theorem frame_kernel : Cert.frame_Kernel := fun m ρ _ => Cert.Kernel.Gen.frame m ρ

/-- The idealized kernel program runs, its arguments unchanged. -/
theorem frame_kernelIdeal : Cert.frame_KernelIdeal := fun m ρ _ => Cert.KernelIdeal.Gen.frame m ρ

/-- The idealized reference runs, its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array is `result` of the arguments (its run, read) and the reference's
    is its operations' composed term of arguments that agree: one function (`Cert.GraphConv.result_eq_reference`). -/
theorem algebraic : Cert.algebraic_KernelIdeal_ReferenceIdeal := by
  intro m ρ m' ρ' _ hagree
  refine ⟨_, Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, (hagree c).1, (hagree c).2.1, (hagree c).2.2.1, (hagree c).2.2.2.1,
    (hagree c).2.2.2.2.1, (hagree c).2.2.2.2.2.1, (hagree c).2.2.2.2.2.2]
  exact (Cert.GraphConv.result_eq_reference _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
